-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3x128x1000 : Shape := ⟨4, ![128, 3, 128, 1000]⟩
abbrev S128x2 : Shape := ⟨2, ![128, 2]⟩
abbrev S_ : Shape := ⟨0, ![]⟩

class Facts : Prop where
  bcast_S_S128x3x128x1000 : S_.BroadcastsInDim S128x3x128x1000 (![] : Fin 0 → Fin S128x3x128x1000.rank)
  reducesTo_S128x3x128x1000_S_d0_1_2_3 : S128x3x128x1000.ReducesTo [0, 1, 2, 3] S_
  h_S_ : 0 < S_.numel

variable [Facts]

def fn {F : FTy → Type} [FloatOps F] (main_arg0 : FVec F S128x3x128x1000 .f32) (main_arg1 : FVec F S128x3x128x1000 .f32) (main_arg2 : IVec S128x2 32) (main_arg3 : IVec S128x2 32) (main_arg4 : IVec S128x2 32) (main_arg5 : IVec S128x2 32) : IVec S_ 1 :=
  let main_v0 : FVec F S128x3x128x1000 .f32 := Host.absf main_arg0
  let main_cst : FVec F S_ .f32 := constant S_ .f32 0x7F800000#32
  let main_v1 : FVec F S128x3x128x1000 .f32 := broadcastInDim S128x3x128x1000 ![] bcast_S_S128x3x128x1000 main_cst
  let main_v2 : IVec S128x3x128x1000 1 := cmpf .olt main_v0 main_v1
  let main_c : IVec S_ 1 := constantI S_ 1 1#1
  let main_v3 : IVec S_ 1 := (fun x v => Host.reduce IntOp.andi x v reducesTo_S128x3x128x1000_S_d0_1_2_3 h_S_) main_v2 main_c
  let main_v4 : FVec F S128x3x128x1000 .f32 := Host.absf main_arg1
  let main_cst_0 : FVec F S_ .f32 := constant S_ .f32 0x7F800000#32
  let main_v5 : FVec F S128x3x128x1000 .f32 := broadcastInDim S128x3x128x1000 ![] bcast_S_S128x3x128x1000 main_cst_0
  let main_v6 : IVec S128x3x128x1000 1 := cmpf .olt main_v4 main_v5
  let main_c_1 : IVec S_ 1 := constantI S_ 1 1#1
  let main_v7 : IVec S_ 1 := (fun x v => Host.reduce IntOp.andi x v reducesTo_S128x3x128x1000_S_d0_1_2_3 h_S_) main_v6 main_c_1
  let main_v8 : IVec S_ 1 := andi main_v3 main_v7
  main_v8
-- ==== Kernel.lean ====
abbrev S128x3x128x1000 : Shape := ⟨4, ![128, 3, 128, 1000]⟩
abbrev S128x2 : Shape := ⟨2, ![128, 2]⟩
abbrev S_ : Shape := ⟨0, ![]⟩
abbrev S128x3x128x1024 : Shape := ⟨4, ![128, 3, 128, 1024]⟩
abbrev S8x3x128x256 : Shape := ⟨4, ![8, 3, 128, 256]⟩
abbrev S8x2 : Shape := ⟨2, ![8, 2]⟩
abbrev S8x128 : Shape := ⟨2, ![8, 128]⟩
abbrev S8x1 : Shape := ⟨2, ![8, 1]⟩
abbrev S8x256 : Shape := ⟨2, ![8, 256]⟩
abbrev S8x1x128x1 : Shape := ⟨4, ![8, 1, 128, 1]⟩
abbrev S8x1x1x256 : Shape := ⟨4, ![8, 1, 1, 256]⟩

abbrev nBuf : Space → Nat
  | .hbm => 14
  | .vmem => 14
  | .smem => 0
  | _ => 0

abbrev bufTy : (tb : Table) → Fin (tcTables nBuf tb) → BufTy
  | .hbm, ⟨0, _⟩ => ⟨S128x3x128x1000, .f32⟩
  | .hbm, ⟨1, _⟩ => ⟨S128x3x128x1000, .f32⟩
  | .hbm, ⟨2, _⟩ => ⟨S128x2, .i32⟩
  | .hbm, ⟨3, _⟩ => ⟨S128x2, .i32⟩
  | .hbm, ⟨4, _⟩ => ⟨S128x2, .i32⟩
  | .hbm, ⟨5, _⟩ => ⟨S128x2, .i32⟩
  | .hbm, ⟨6, _⟩ => ⟨S_, .i32⟩
  | .hbm, ⟨7, _⟩ => ⟨S_, .f32⟩
  | .hbm, ⟨8, _⟩ => ⟨S128x3x128x1024, .f32⟩
  | .hbm, ⟨9, _⟩ => ⟨S_, .i32⟩
  | .hbm, ⟨10, _⟩ => ⟨S_, .f32⟩
  | .hbm, ⟨11, _⟩ => ⟨S128x3x128x1024, .f32⟩
  | .hbm, ⟨12, _⟩ => ⟨S128x3x128x1024, .f32⟩
  | .hbm, ⟨13, _⟩ => ⟨S128x3x128x1000, .f32⟩
  | .local _ .vmem, ⟨0, _⟩ => ⟨S8x3x128x256, .f32⟩
  | .local _ .vmem, ⟨1, _⟩ => ⟨S8x3x128x256, .f32⟩
  | .local _ .vmem, ⟨2, _⟩ => ⟨S8x3x128x256, .f32⟩
  | .local _ .vmem, ⟨3, _⟩ => ⟨S8x3x128x256, .f32⟩
  | .local _ .vmem, ⟨4, _⟩ => ⟨S8x2, .i32⟩
  | .local _ .vmem, ⟨5, _⟩ => ⟨S8x2, .i32⟩
  | .local _ .vmem, ⟨6, _⟩ => ⟨S8x2, .i32⟩
  | .local _ .vmem, ⟨7, _⟩ => ⟨S8x2, .i32⟩
  | .local _ .vmem, ⟨8, _⟩ => ⟨S8x2, .i32⟩
  | .local _ .vmem, ⟨9, _⟩ => ⟨S8x2, .i32⟩
  | .local _ .vmem, ⟨10, _⟩ => ⟨S8x2, .i32⟩
  | .local _ .vmem, ⟨11, _⟩ => ⟨S8x2, .i32⟩
  | .local _ .vmem, ⟨12, _⟩ => ⟨S8x3x128x256, .f32⟩
  | .local _ .vmem, ⟨13, _⟩ => ⟨S8x3x128x256, .f32⟩
  | _, _ => ⟨S128x3x128x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S8x3x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x2 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x3x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  pads_S128x3x128x1000_S128x3x128x1024_000_000_000_0240 : S128x3x128x1000.Pads (![0, 0, 0, 0] : Fin 4 → Nat) ![0, 0, 0, 24] ![0, 0, 0, 0] S128x3x128x1024
  h_S_ : 0 < S_.numel
  inb_S8x3x128x256_S8x3x128x256_0_0_0_0 : ∀ a, (![0, 0, 0, 0] : Fin 4 → Nat) a + S8x3x128x256.size a ≤ S8x3x128x256.size a
  h_S8x3x128x256 : 0 < S8x3x128x256.numel
  shapeCasts_S8x3x128x256_S8x3x128x256 : S8x3x128x256.ShapeCasts S8x3x128x256
  inb_S8x2_S8x2_0_0 : ∀ a, (![0, 0] : Fin 2 → Nat) a + S8x2.size a ≤ S8x2.size a
  h_S8x2 : 0 < S8x2.numel
  iota_S8x128_d1_w32 : S8x128.Iotas .tc 32 [1]
  slices_S8x2_o0_0_S8x1 : S8x2.Slices ![0, 0] S8x1
  broadcasts_S8x1_S8x128 : S8x1.Broadcasts S8x128
  slices_S8x2_o0_1_S8x1 : S8x2.Slices ![0, 1] S8x1
  natLt_1_32 : 1 < 32
  iota_S8x256_d1_w32 : S8x256.Iotas .tc 32 [1]
  broadcasts_S8x1_S8x256 : S8x1.Broadcasts S8x256
  shapeCasts_S8x128_S8x1x128x1 : S8x128.ShapeCasts S8x1x128x1
  broadcasts_S8x1x128x1_S8x3x128x256 : S8x1x128x1.Broadcasts S8x3x128x256
  shapeCasts_S8x256_S8x1x1x256 : S8x256.ShapeCasts S8x1x1x256
  broadcasts_S8x1x1x256_S8x3x128x256 : S8x1x1x256.Broadcasts S8x3x128x256
  slices_S128x3x128x1024_S128x3x128x1000_0_0_0_0 : S128x3x128x1024.Slices ![0, 0, 0, 0] S128x3x128x1000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x128x256.size a ≤ S128x3x128x1024.size a
  hwx0_0 : ∀ i : grid0.Coords, EltTy.bits .f32 = 32 ∨ (Rect.block (s := S128x3x128x1024) S8x3x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x128x256.size a ≤ S128x3x128x1024.size a
  hwx0_1 : ∀ i : grid0.Coords, EltTy.bits .f32 = 32 ∨ (Rect.block (s := S128x3x128x1024) S8x3x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2.size a ≤ S128x2.size a
  hwx0_2 : ∀ i : grid0.Coords, EltTy.bits .i32 = 32 ∨ (Rect.block (s := S128x2) S8x2.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2.size a ≤ S128x2.size a
  hwx0_3 : ∀ i : grid0.Coords, EltTy.bits .i32 = 32 ∨ (Rect.block (s := S128x2) S8x2.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x2.size a ≤ S128x2.size a
  hwx0_4 : ∀ i : grid0.Coords, EltTy.bits .i32 = 32 ∨ (Rect.block (s := S128x2) S8x2.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x2.size a ≤ S128x2.size a
  hwx0_5 : ∀ i : grid0.Coords, EltTy.bits .i32 = 32 ∨ (Rect.block (s := S128x2) S8x2.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x3x128x256.size a ≤ S128x3x128x1024.size a
  hwx0_6 : ∀ i : grid0.Coords, EltTy.bits .f32 = 32 ∨ (Rect.block (s := S128x3x128x1024) S8x3x128x256.size (cc0_transform_6 i) (hinb0_6 i)).WholeWords (EltTy.packing .f32)

variable [Facts₀]

abbrev win0_0 : Pipeline.Window sig grid0 :=
  Pipeline.Window.ofSpec (Memref.whole main_v0) S8x3x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x3x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x2.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S8x3x128x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x3x128x1000 : Shape := ⟨4, ![128, 3, 128, 1000]⟩
abbrev S128x2 : Shape := ⟨2, ![128, 2]⟩
abbrev S_ : Shape := ⟨0, ![]⟩
abbrev S128 : Shape := ⟨1, ![128]⟩
abbrev S1x1x128 : Shape := ⟨3, ![1, 1, 128]⟩
abbrev S128x2x1 : Shape := ⟨3, ![128, 2, 1]⟩
abbrev S128x2x128 : Shape := ⟨3, ![128, 2, 128]⟩
abbrev S128x128 : Shape := ⟨2, ![128, 128]⟩
abbrev S1000 : Shape := ⟨1, ![1000]⟩
abbrev S1x1x1000 : Shape := ⟨3, ![1, 1, 1000]⟩
abbrev S128x2x1000 : Shape := ⟨3, ![128, 2, 1000]⟩
abbrev S128x1000 : Shape := ⟨2, ![128, 1000]⟩
abbrev S128x1x128x1 : Shape := ⟨4, ![128, 1, 128, 1]⟩
abbrev S128x1x1x1000 : Shape := ⟨4, ![128, 1, 1, 1000]⟩
abbrev S128x1x128x1000 : Shape := ⟨4, ![128, 1, 128, 1000]⟩

abbrev nBuf : Space → Nat
  | .hbm => 48
  | .vmem => 0
  | .smem => 0
  | _ => 0

abbrev bufTy : (tb : Table) → Fin (tcTables nBuf tb) → BufTy
  | .hbm, ⟨0, _⟩ => ⟨S128x3x128x1000, .f32⟩
  | .hbm, ⟨1, _⟩ => ⟨S128x3x128x1000, .f32⟩
  | .hbm, ⟨2, _⟩ => ⟨S128x2, .i32⟩
  | .hbm, ⟨3, _⟩ => ⟨S128x2, .i32⟩
  | .hbm, ⟨4, _⟩ => ⟨S128x2, .i32⟩
  | .hbm, ⟨5, _⟩ => ⟨S128x2, .i32⟩
  | .hbm, ⟨6, _⟩ => ⟨S_, .f32⟩
  | .hbm, ⟨7, _⟩ => ⟨S128x3x128x1000, .f32⟩
  | .hbm, ⟨8, _⟩ => ⟨S128x3x128x1000, .f32⟩
  | .hbm, ⟨9, _⟩ => ⟨S128x3x128x1000, .f32⟩
  | .hbm, ⟨10, _⟩ => ⟨S128, .i32⟩
  | .hbm, ⟨11, _⟩ => ⟨S1x1x128, .i32⟩
  | .hbm, ⟨12, _⟩ => ⟨S128x2x1, .i32⟩
  | .hbm, ⟨13, _⟩ => ⟨S128x2x128, .i32⟩
  | .hbm, ⟨14, _⟩ => ⟨S128x2x128, .i32⟩
  | .hbm, ⟨15, _⟩ => ⟨S128x2x128, .i1⟩
  | .hbm, ⟨16, _⟩ => ⟨S128x2, .i32⟩
  | .hbm, ⟨17, _⟩ => ⟨S128x2x1, .i32⟩
  | .hbm, ⟨18, _⟩ => ⟨S128x2x128, .i32⟩
  | .hbm, ⟨19, _⟩ => ⟨S128x2x128, .i32⟩
  | .hbm, ⟨20, _⟩ => ⟨S128x2x128, .i1⟩
  | .hbm, ⟨21, _⟩ => ⟨S128x2x128, .i1⟩
  | .hbm, ⟨22, _⟩ => ⟨S_, .i1⟩
  | .hbm, ⟨23, _⟩ => ⟨S128x128, .i1⟩
  | .hbm, ⟨24, _⟩ => ⟨S1000, .i32⟩
  | .hbm, ⟨25, _⟩ => ⟨S1x1x1000, .i32⟩
  | .hbm, ⟨26, _⟩ => ⟨S128x2x1, .i32⟩
  | .hbm, ⟨27, _⟩ => ⟨S128x2x1000, .i32⟩
  | .hbm, ⟨28, _⟩ => ⟨S128x2x1000, .i32⟩
  | .hbm, ⟨29, _⟩ => ⟨S128x2x1000, .i1⟩
  | .hbm, ⟨30, _⟩ => ⟨S128x2, .i32⟩
  | .hbm, ⟨31, _⟩ => ⟨S128x2x1, .i32⟩
  | .hbm, ⟨32, _⟩ => ⟨S128x2x1000, .i32⟩
  | .hbm, ⟨33, _⟩ => ⟨S128x2x1000, .i32⟩
  | .hbm, ⟨34, _⟩ => ⟨S128x2x1000, .i1⟩
  | .hbm, ⟨35, _⟩ => ⟨S128x2x1000, .i1⟩
  | .hbm, ⟨36, _⟩ => ⟨S_, .i1⟩
  | .hbm, ⟨37, _⟩ => ⟨S128x1000, .i1⟩
  | .hbm, ⟨38, _⟩ => ⟨S128x128, .i1⟩
  | .hbm, ⟨39, _⟩ => ⟨S128x1x128x1, .i1⟩
  | .hbm, ⟨40, _⟩ => ⟨S128x1000, .i1⟩
  | .hbm, ⟨41, _⟩ => ⟨S128x1x1x1000, .i1⟩
  | .hbm, ⟨42, _⟩ => ⟨S128x1x128x1000, .i1⟩
  | .hbm, ⟨43, _⟩ => ⟨S128x1x128x1000, .i1⟩
  | .hbm, ⟨44, _⟩ => ⟨S128x1x128x1000, .i1⟩
  | .hbm, ⟨45, _⟩ => ⟨S128x1x128x1000, .f32⟩
  | .hbm, ⟨46, _⟩ => ⟨S128x3x128x1000, .f32⟩
  | .hbm, ⟨47, _⟩ => ⟨S128x3x128x1000, .f32⟩
  | _, _ => ⟨S128x3x128x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]

class Facts₀ : Prop where
  bcast_S_S128x3x128x1000 : S_.BroadcastsInDim S128x3x128x1000 (![] : Fin 0 → Fin S128x3x128x1000.rank)
  bcast_S128_S1x1x128_2 : S128.BroadcastsInDim S1x1x128 (![2] : Fin 1 → Fin S1x1x128.rank)
  bcast_S128x2_S128x2x1_0_1 : S128x2.BroadcastsInDim S128x2x1 (![0, 1] : Fin 2 → Fin S128x2x1.rank)
  bcast_S1x1x128_S128x2x128_0_1_2 : S1x1x128.BroadcastsInDim S128x2x128 (![0, 1, 2] : Fin 3 → Fin S128x2x128.rank)
  bcast_S128x2x1_S128x2x128_0_1_2 : S128x2x1.BroadcastsInDim S128x2x128 (![0, 1, 2] : Fin 3 → Fin S128x2x128.rank)
  reducesTo_S128x2x128_S128x128_d1 : S128x2x128.ReducesTo [1] S128x128
  h_S_ : 0 < S_.numel
  bcast_S1000_S1x1x1000_2 : S1000.BroadcastsInDim S1x1x1000 (![2] : Fin 1 → Fin S1x1x1000.rank)
  bcast_S1x1x1000_S128x2x1000_0_1_2 : S1x1x1000.BroadcastsInDim S128x2x1000 (![0, 1, 2] : Fin 3 → Fin S128x2x1000.rank)
  bcast_S128x2x1_S128x2x1000_0_1_2 : S128x2x1.BroadcastsInDim S128x2x1000 (![0, 1, 2] : Fin 3 → Fin S128x2x1000.rank)
  reducesTo_S128x2x1000_S128x1000_d1 : S128x2x1000.ReducesTo [1] S128x1000
  bcast_S128x128_S128x1x128x1_0_2 : S128x128.BroadcastsInDim S128x1x128x1 (![0, 2] : Fin 2 → Fin S128x1x128x1.rank)
  bcast_S128x1000_S128x1x1x1000_0_3 : S128x1000.BroadcastsInDim S128x1x1x1000 (![0, 3] : Fin 2 → Fin S128x1x1x1000.rank)
  bcast_S128x1x128x1_S128x1x128x1000_0_1_2_3 : S128x1x128x1.BroadcastsInDim S128x1x128x1000 (![0, 1, 2, 3] : Fin 4 → Fin S128x1x128x1000.rank)
  bcast_S128x1x1x1000_S128x1x128x1000_0_1_2_3 : S128x1x1x1000.BroadcastsInDim S128x1x128x1000 (![0, 1, 2, 3] : Fin 4 → Fin S128x1x128x1000.rank)
  bcast_S128x1x128x1000_S128x3x128x1000_0_1_2_3 : S128x1x128x1000.BroadcastsInDim S128x3x128x1000 (![0, 1, 2, 3] : Fin 4 → Fin S128x3x128x1000.rank)

variable [Facts₀]

class Facts : Prop extends Facts₀ where

variable [Facts]
-- ==== Proof.Spec.lean ====
/-
  What both programs compute, as one function of the six argument arrays, index by index on the extended reals.

  The input `x` has a multiple `0.04 · noise` of a noise array added, and the sum is zeroed on two frequency bands and two time
  bands per batch row `b`: band `n` of the frequency axis is the interval `[f0(b,n), f0(b,n) + f_len(b,n))` and band `n` of
  the time axis the interval `[t0(b,n), t0(b,n) + t_len(b,n))`, every comparison one of signed 32-bit words and every sum of a
  start and a length wrapping as 32-bit addition does. An entry `(b, ch, f, t)` survives when `f` is in neither frequency
  band and `t` in neither time band of row `b`; it is multiplied by `1` then, and by `0` otherwise.

  One program multiplies by the `0/1` value of the conjunction "not in a frequency band and not in a time band"; the other
  multiplies first by the `0/1` value of "not in a frequency band" and then by that of "not in a time band". On the extended
  reals these agree for every value of the sum, infinite ones included: a product with `1` is the value itself and a product
  with `0` is `0`, so no finiteness is used (`keep_split`).
-/
import Idealize.ShloMosaic.PureOps.Ideal
import Idealize.ShloMosaic.Lib.ValueIdx

noncomputable section

namespace Cert.Spec

open Idealize.ShloMosaic Idealize.ShloMosaic.ValueIdx

/-- The position `p` lies in the interval that starts at `s` and has length `l`: `s ≤ p` and `p < s + l`, as signed 32-bit
    words, the sum wrapping. -/
def inside (s l p : BitVec 32) : BitVec 1 :=
  IntOp.andi (IntOp.cmpi .sge p s) (IntOp.cmpi .slt p (IntOp.addi s l))

/-- The position `p` lies in one of two intervals. -/
def hit (s0 l0 s1 l1 p : BitVec 32) : BitVec 1 :=
  IntOp.ori (inside s0 l0 p) (inside s1 l1 p)

/-- The noisy input at one entry: `x + noise · 0.04`, the factor the float32 nearest to `0.04`. -/
def noisy (xv nv : Ideal .f32) : Ideal .f32 :=
  xv + nv * Ideal.ofBits .f32 0x3D23D70A#32

/-- The factor `1` or `0` of an entry that is in a band of the first kind iff `a = 1` and in a band of the second kind iff
    `b = 1`: the unsigned value of the one-bit word "neither". -/
def keep (a b : BitVec 1) : Ideal .f32 :=
  FloatOps.uitofp (F := Ideal) .f32 (IntOp.andi (~~~a) (~~~b))

/-- The factor `1` or `0` for one kind of band alone: the signed value of the complement of `a`, zero-extended to 32 bits. -/
def keep1 (a : BitVec 1) : Ideal .f32 :=
  FloatOps.sitofp (F := Ideal) .f32 ((IntOp.xori a 1#1).setWidth 32)

/-- Multiplying by the two single factors in turn is multiplying by the joint factor, for EVERY extended real `c`. -/
theorem keep_split (c : Ideal .f32) (a b : BitVec 1) : c * keep1 a * keep1 b = c * keep a b := by
  have ha : a = 0#1 ∨ a = 1#1 := by
    by_cases h : a = 1#1
    · exact Or.inr h
    · exact Or.inl (eq_zero_of_ne_one h)
  have hb : b = 0#1 ∨ b = 1#1 := by
    by_cases h : b = 1#1
    · exact Or.inr h
    · exact Or.inl (eq_zero_of_ne_one h)
  have one : (((1 : ℤ) : ℝ) : EReal) = 1 := by norm_num
  have zero : (((0 : ℤ) : ℝ) : EReal) = 0 := by norm_num
  have one' : (((1 : ℕ) : ℝ) : EReal) = 1 := by norm_num
  have zero' : (((0 : ℕ) : ℝ) : EReal) = 0 := by norm_num
  rcases ha with rfl | rfl <;> rcases hb with rfl | rfl
  · show c * (((((IntOp.xori 0#1 1#1).setWidth 32).toInt : ℤ) : ℝ) : EReal) * (((((IntOp.xori 0#1 1#1).setWidth 32).toInt : ℤ) : ℝ) : EReal)
      = c * ((((IntOp.andi (~~~(0#1 : BitVec 1)) (~~~(0#1 : BitVec 1))).toNat : ℕ) : ℝ) : EReal)
    rw [show ((IntOp.xori 0#1 1#1 : BitVec 1).setWidth 32).toInt = 1 from by decide,
      show (IntOp.andi (~~~(0#1 : BitVec 1)) (~~~(0#1 : BitVec 1))).toNat = 1 from by decide]
    simp only [one, one', mul_one]
  · show c * (((((IntOp.xori 0#1 1#1).setWidth 32).toInt : ℤ) : ℝ) : EReal) * (((((IntOp.xori 1#1 1#1).setWidth 32).toInt : ℤ) : ℝ) : EReal)
      = c * ((((IntOp.andi (~~~(0#1 : BitVec 1)) (~~~(1#1 : BitVec 1))).toNat : ℕ) : ℝ) : EReal)
    rw [show ((IntOp.xori 1#1 1#1 : BitVec 1).setWidth 32).toInt = 0 from by decide,
      show (IntOp.andi (~~~(0#1 : BitVec 1)) (~~~(1#1 : BitVec 1))).toNat = 0 from by decide]
    simp only [zero, zero', mul_zero]
  · show c * (((((IntOp.xori 1#1 1#1).setWidth 32).toInt : ℤ) : ℝ) : EReal) * (((((IntOp.xori 0#1 1#1).setWidth 32).toInt : ℤ) : ℝ) : EReal)
      = c * ((((IntOp.andi (~~~(1#1 : BitVec 1)) (~~~(0#1 : BitVec 1))).toNat : ℕ) : ℝ) : EReal)
    rw [show ((IntOp.xori 1#1 1#1 : BitVec 1).setWidth 32).toInt = 0 from by decide,
      show (IntOp.andi (~~~(1#1 : BitVec 1)) (~~~(0#1 : BitVec 1))).toNat = 0 from by decide]
    simp only [zero, zero', mul_zero, zero_mul]
  · show c * (((((IntOp.xori 1#1 1#1).setWidth 32).toInt : ℤ) : ℝ) : EReal) * (((((IntOp.xori 1#1 1#1).setWidth 32).toInt : ℤ) : ℝ) : EReal)
      = c * ((((IntOp.andi (~~~(1#1 : BitVec 1)) (~~~(1#1 : BitVec 1))).toNat : ℕ) : ℝ) : EReal)
    rw [show ((IntOp.xori 1#1 1#1 : BitVec 1).setWidth 32).toInt = 0 from by decide,
      show (IntOp.andi (~~~(1#1 : BitVec 1)) (~~~(1#1 : BitVec 1))).toNat = 0 from by decide]
    simp only [zero, zero', mul_zero]

/-- A table of band starts or lengths: one row per batch entry, one column per band. -/
abbrev Tab := IVec (⟨2, ![128, 2]⟩ : Shape) 32

/-- Position `p` lies in one of the two bands of row `b` of a table pair (starts `st`, lengths `ln`). -/
def hitRow (st ln : Tab) (b : Fin 128) (p : BitVec 32) : BitVec 1 :=
  hit (st (ix2 b 0)) (ln (ix2 b 0)) (st (ix2 b 1)) (ln (ix2 b 1)) p

/-- THE RESULT: at `(b, ch, f, t)` the noisy input times the joint factor of "`f` in a frequency band of row `b`" and
    "`t` in a time band of row `b`". -/
def G (x n : FVec Ideal (⟨4, ![128, 3, 128, 1000]⟩ : Shape) .f32) (f0 fl t0 tl : Tab) :
    FVec Ideal (⟨4, ![128, 3, 128, 1000]⟩ : Shape) .f32 := fun i =>
  noisy (x i) (n i) * keep (hitRow f0 fl (i 0) (BitVec.ofNat 32 (i 2).val)) (hitRow t0 tl (i 0) (BitVec.ofNat 32 (i 3).val))

end Cert.Spec

end
-- ==== Proof.KernelPayload.lean ====
/-
  The kernel body's arithmetic read at one entry of a block, on the extended reals.

  A block has 8 batch rows, the 3 channels, the 128 frequencies and 256 consecutive times. At entry `(p, ch, f, q)` of the
  block the body stores the noisy input `x + noise · 0.04` times the factor for "frequency `f` in neither frequency band of
  row `p`" times the factor for "global time in neither time band of row `p`", the global time being `q` plus 256 times the
  block's position along the time axis. The frequency and time factors are computed on `[8,128]` and `[8,256]` arrays and
  carried to the block's shape by a reshape (inserting unit axes) and a broadcast, so each is read at `(p, f)`, `(p, q)`.
-/
import proofs.«153836_j37735582662926_2_alg».proof.Proof.Gen.KernelIdeal.Skeleton
import proofs.«153836_j37735582662926_2_alg».proof.Proof.Spec
import Idealize.ShloMosaic.Lib.Pipeline.Value
import Idealize.ShloMosaic.Lib.ValueIdx

noncomputable section

namespace Cert.KernelSide

open Cert.KernelIdeal Cert.KernelIdeal.Gen Idealize.ShloMosaic Idealize.ShloMosaic.ValueIdx Cert.Spec

/-! ## Pointwise integer operations at an index -/

section Pointwise
variable {s : Shape} {w : Nat}

theorem xori_apply (x y : IVec s w) (i : s.Idx) : xori x y i = IntOp.xori (x i) (y i) := rfl
theorem ori_apply (x y : IVec s w) (i : s.Idx) : ori x y i = IntOp.ori (x i) (y i) := rfl
theorem andi_apply (x y : IVec s w) (i : s.Idx) : andi x y i = IntOp.andi (x i) (y i) := rfl
theorem addi_apply (x y : IVec s w) (i : s.Idx) : addi x y i = IntOp.addi (x i) (y i) := rfl
theorem cmpi_apply (pr : CmpIPredicate) (x y : IVec s w) (i : s.Idx) : cmpi pr x y i = IntOp.cmpi pr (x i) (y i) := rfl
theorem constantI_apply (b : BitVec w) (i : s.Idx) : constantI s w b i = b := rfl

end Pointwise

/-- "Or" with the all-false word changes nothing. -/
theorem zero_ori (a : BitVec 1) : IntOp.ori 0#1 a = a := by
  show 0#1 ||| a = a
  exact BitVec.zero_or

/-! ## The layout operations of the body at an index -/

section Layout
variable {α : Type}

/-- A column `[8,1]` broadcast along a second axis of any extent reads the column's row. -/
theorem column_broadcast {W : Nat} (y : (⟨2, ![8, 1]⟩ : Shape).Idx → α) (h : (⟨2, ![8, 1]⟩ : Shape).Broadcasts ⟨2, ![8, W]⟩)
    (p : Fin 8) (q : Fin W) : broadcastTo ⟨2, ![8, W]⟩ y h (ix2 p q) = y (ix2 p 0) :=
  broadcastTo_apply y h (ix2 p q) (ix2 p 0) (fun a => match a with
    | ⟨0, _⟩ => by show p.val = if (8 : Nat) = 1 then 0 else p.val; rw [if_neg (by decide)]
    | ⟨1, _⟩ => by show 0 = if (1 : Nat) = 1 then 0 else _; rw [if_pos rfl])

/-- Column 0 of an `[8,2]` table as an `[8,1]` array. -/
theorem column_zero (v : (⟨2, ![8, 2]⟩ : Shape).Idx → α) (h : (⟨2, ![8, 2]⟩ : Shape).Slices ![0, 0] ⟨2, ![8, 1]⟩) (p : Fin 8) :
    extractStridedSlice ⟨2, ![8, 1]⟩ ![0, 0] v h (ix2 p 0) = v (ix2 p 0) :=
  extractStridedSlice_apply ![0, 0] v h (ix2 p 0) (ix2 p 0) (fun a => match a with
    | ⟨0, _⟩ => by show p.val = 0 + p.val; omega
    | ⟨1, _⟩ => by show 0 = 0 + 0; rfl)

/-- Column 1 of an `[8,2]` table as an `[8,1]` array. -/
theorem column_one (v : (⟨2, ![8, 2]⟩ : Shape).Idx → α) (h : (⟨2, ![8, 2]⟩ : Shape).Slices ![0, 1] ⟨2, ![8, 1]⟩) (p : Fin 8) :
    extractStridedSlice ⟨2, ![8, 1]⟩ ![0, 1] v h (ix2 p 0) = v (ix2 p 1) :=
  extractStridedSlice_apply ![0, 1] v h (ix2 p 0) (ix2 p 1) (fun a => match a with
    | ⟨0, _⟩ => by show p.val = 0 + p.val; omega
    | ⟨1, _⟩ => by show 1 = 1 + 0; rfl)

/-- A `[8,128]` array viewed as `[8,1,128,1]` and broadcast to the block's shape reads `(p, f)` at `(p, ch, f, q)`. -/
theorem spread_rows_freqs (y : (⟨2, ![8, 128]⟩ : Shape).Idx → α) (h : (⟨2, ![8, 128]⟩ : Shape).ShapeCasts ⟨4, ![8, 1, 128, 1]⟩)
    (h' : (⟨4, ![8, 1, 128, 1]⟩ : Shape).Broadcasts ⟨4, ![8, 3, 128, 256]⟩) (p : Fin 8) (ch : Fin 3) (f : Fin 128) (q : Fin 256) :
    broadcastTo ⟨4, ![8, 3, 128, 256]⟩ (shapeCast ⟨4, ![8, 1, 128, 1]⟩ y h) h' (ix4 p ch f q) = y (ix2 p f) := by
  refine (broadcastTo_apply _ h' (ix4 p ch f q) (ix4 p 0 f 0) (fun a => match a with
    | ⟨0, _⟩ => by show p.val = if (8 : Nat) = 1 then 0 else p.val; rw [if_neg (by decide)]
    | ⟨1, _⟩ => by show 0 = if (1 : Nat) = 1 then 0 else _; rw [if_pos rfl]
    | ⟨2, _⟩ => by show f.val = if (128 : Nat) = 1 then 0 else f.val; rw [if_neg (by decide)]
    | ⟨3, _⟩ => by show 0 = if (1 : Nat) = 1 then 0 else _; rw [if_pos rfl])).trans ?_
  refine shapeCast_apply y h (ix4 p 0 f 0) (ix2 p f) ?_
  rw [Shape.rowMajor_val_two, Shape.rowMajor_val_four]
  show p.val * 128 + f.val = ((p.val * 1 + 0) * 128 + f.val) * 1 + 0
  omega

/-- A `[8,256]` array viewed as `[8,1,1,256]` and broadcast to the block's shape reads `(p, q)` at `(p, ch, f, q)`. -/
theorem spread_rows_times (y : (⟨2, ![8, 256]⟩ : Shape).Idx → α) (h : (⟨2, ![8, 256]⟩ : Shape).ShapeCasts ⟨4, ![8, 1, 1, 256]⟩)
    (h' : (⟨4, ![8, 1, 1, 256]⟩ : Shape).Broadcasts ⟨4, ![8, 3, 128, 256]⟩) (p : Fin 8) (ch : Fin 3) (f : Fin 128) (q : Fin 256) :
    broadcastTo ⟨4, ![8, 3, 128, 256]⟩ (shapeCast ⟨4, ![8, 1, 1, 256]⟩ y h) h' (ix4 p ch f q) = y (ix2 p q) := by
  refine (broadcastTo_apply _ h' (ix4 p ch f q) (ix4 p 0 0 q) (fun a => match a with
    | ⟨0, _⟩ => by show p.val = if (8 : Nat) = 1 then 0 else p.val; rw [if_neg (by decide)]
    | ⟨1, _⟩ => by show 0 = if (1 : Nat) = 1 then 0 else _; rw [if_pos rfl]
    | ⟨2, _⟩ => by show 0 = if (1 : Nat) = 1 then 0 else _; rw [if_pos rfl]
    | ⟨3, _⟩ => by show q.val = if (256 : Nat) = 1 then 0 else q.val; rw [if_neg (by decide)])).trans ?_
  refine shapeCast_apply y h (ix4 p 0 0 q) (ix2 p q) ?_
  rw [Shape.rowMajor_val_two, Shape.rowMajor_val_four]
  show p.val * 256 + q.val = ((p.val * 1 + 0) * 1 + 0) * 256 + q.val
  omega

end Layout

/-- The frequency counter of a block reads its frequency coordinate. -/
theorem freq_counter (h : S8x128.Iotas .tc 32 [1]) (p : Fin 8) (f : Fin 128) :
    iota .tc S8x128 32 [1] h (ix2 p f) = BitVec.ofNat 32 f.val :=
  iota_single_apply .tc S8x128 32 1 h (ix2 p f)

/-- The local time counter of a block reads its time coordinate. -/
theorem time_counter (h : S8x256.Iotas .tc 32 [1]) (p : Fin 8) (q : Fin 256) :
    iota .tc S8x256 32 [1] h (ix2 p q) = BitVec.ofNat 32 q.val :=
  iota_single_apply .tc S8x256 32 1 h (ix2 p q)

/-! ## The body's four values at an index -/

/-- The noisy input of a block, entry by entry. -/
theorem noisy_block (v0 v2 : Vec Ideal S8x3x128x256 .f32) (j : S8x3x128x256.Idx) :
    k0_pay2 (F := Ideal) v0 v2 j = noisy (v0 j) (v2 j) := by
  unfold k0_pay2
  simp only [shapeCast_self]
  rfl

/-- The frequency factor of a block at row `p`, frequency `f`. -/
theorem freq_factor (v7 v8 : Vec Ideal S8x2 .i32) (p : Fin 8) (f : Fin 128) :
    k0_pay3 (F := Ideal) v7 v8 (ix2 p f)
      = keep1 (hit (v7 (ix2 p 0)) (v8 (ix2 p 0)) (v7 (ix2 p 1)) (v8 (ix2 p 1)) (BitVec.ofNat 32 f.val)) := by
  unfold k0_pay3
  simp only [sitofp_apply, extui_apply, xori_apply, ori_apply, andi_apply, cmpi_apply, addi_apply, constantI_apply,
    broadcast_apply, column_broadcast, column_zero, column_one, zero_ori]
  rw [freq_counter]
  rfl

/-- The global time of a block at local time `q`: `q` plus 256 times the block's position on the time axis. -/
theorem global_time (i : grid0.Coords) (p : Fin 8) (q : Fin 256) :
    k0_pay4 i (ix2 p q) = BitVec.ofNat 32 ((i 1).val * 256 + q.val) := by
  unfold k0_pay4
  simp only [addi_apply, broadcast_apply]
  rw [time_counter]
  show BitVec.ofNat 32 q.val + BitVec.ofNat 32 (i 1).val * 256#32 = _
  rw [show (256#32 : BitVec 32) = BitVec.ofNat 32 256 from rfl, ← BitVec.ofNat_mul, ← BitVec.ofNat_add, Nat.add_comm]

/-- What the body stores at `(p, ch, f, q)`: the noisy input times the frequency factor at `(p, f)` times the time factor of row
    `p` at the time index `v37 (p, q)`. -/
theorem stored_entry (v6 : FVec Ideal S8x3x128x256 .f32) (v9 v10 : Vec Ideal S8x2 .i32) (v33 : FVec Ideal S8x128 .f32)
    (v37 : IVec S8x256 32) (p : Fin 8) (ch : Fin 3) (f : Fin 128) (q : Fin 256) :
    k0_pay1 (F := Ideal) v6 v9 v10 v33 v37 (ix4 p ch f q)
      = v6 (ix4 p ch f q) * v33 (ix2 p f)
          * keep1 (hit (v9 (ix2 p 0)) (v10 (ix2 p 0)) (v9 (ix2 p 1)) (v10 (ix2 p 1)) (v37 (ix2 p q))) := by
  unfold k0_pay1
  simp only [mulf_apply, spread_rows_freqs, spread_rows_times, sitofp_apply, extui_apply, xori_apply, ori_apply, andi_apply,
    cmpi_apply, addi_apply, constantI_apply, broadcast_apply, column_broadcast, column_zero, column_one, zero_ori]
  rfl

end Cert.KernelSide

end
-- ==== Proof.KernelBlocks.lean ====
/-
  From blocks to the array: what the kernel leaves in its padded output.

  The grid has 16 × 4 points; point `(i₀, i₁)` works on batch rows `8·i₀ … 8·i₀+7`, all channels and frequencies, and times
  `256·i₁ … 256·i₁+255` of the arrays padded to 1024 times, together with rows `8·i₀ … 8·i₀+7` of the four band tables. What
  it writes back is the block, at those rows and times, of ONE function `padded_result` of the arrays as the kernel finds them:
  the noisy input times the frequency factor of the entry's row and frequency times the time factor of its row and time —
  the block's local time `q` at position `i₁` being the global time `256·i₁ + q`. The 64 blocks tile the padded array, so
  after the run the array is that function.
-/
import proofs.«153836_j37735582662926_2_alg».proof.Proof.FrameKernelIdeal
import proofs.«153836_j37735582662926_2_alg».proof.Proof.KernelPayload
import Idealize.ShloMosaic.Lib.Pipeline.Value

set_option maxRecDepth 16384

noncomputable section

namespace Cert.KernelSide

open Cert.KernelIdeal Cert.KernelIdeal.Gen Cert.KernelIdeal.GenP Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- What the kernel leaves at entry `(b, ch, f, t)` of its output, `t` running over the 1024 padded times: the noisy input
    times the factor of "`f` in no frequency band of row `b`" times the factor of "`t` in no time band of row `b`". -/
def padded_result (xp np : FVec Ideal S128x3x128x1024 .f32) (f0 fl t0 tl : Tab) : FVec Ideal S128x3x128x1024 .f32 := fun i =>
  noisy (xp i) (np i) * keep1 (hitRow f0 fl (i 0) (BitVec.ofNat 32 (i 2).val))
    * keep1 (hitRow t0 tl (i 0) (BitVec.ofNat 32 (i 3).val))

/-- The body's stored value at one entry of a block, from the six input blocks and the point's coordinates. -/
theorem point_value (i : grid0.Coords) (x0 x1 : Vec Ideal S8x3x128x256 .f32) (x2 x3 x4 x5 : Vec Ideal S8x2 .i32)
    (p : Fin 8) (ch : Fin 3) (f : Fin 128) (q : Fin 256) :
    k0_pay1 (F := Ideal) (k0_pay2 x0 x1) x4 x5 (k0_pay3 x2 x3) (k0_pay4 i) (ix4 p ch f q)
      = noisy (x0 (ix4 p ch f q)) (x1 (ix4 p ch f q))
          * keep1 (hit (x2 (ix2 p 0)) (x3 (ix2 p 0)) (x2 (ix2 p 1)) (x3 (ix2 p 1)) (BitVec.ofNat 32 f.val))
          * keep1 (hit (x4 (ix2 p 0)) (x5 (ix2 p 0)) (x4 (ix2 p 1)) (x5 (ix2 p 1)) (BitVec.ofNat 32 ((i 1).val * 256 + q.val))) := by
  rw [stored_entry, noisy_block, freq_factor, global_time]

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The block positions of the seven windows at a grid point, decided over the 64 points: the output's block sits at
    `(i₀, 0, 0, i₁)`, the two big inputs' blocks at the same position, each table's block at `(i₀, 0)`. -/
theorem block_positions : ∀ t : Fin cfg0.N,
    win0_6.index t (0 : Fin 4) = (grid0.coords t 0).val ∧ win0_6.index t (1 : Fin 4) = 0
    ∧ win0_6.index t (2 : Fin 4) = 0 ∧ win0_6.index t (3 : Fin 4) = (grid0.coords t 1).val
    ∧ win0_0.index t (0 : Fin 4) = win0_6.index t (0 : Fin 4) ∧ win0_0.index t (1 : Fin 4) = 0
    ∧ win0_0.index t (2 : Fin 4) = 0 ∧ win0_0.index t (3 : Fin 4) = win0_6.index t (3 : Fin 4)
    ∧ win0_1.index t (0 : Fin 4) = win0_6.index t (0 : Fin 4) ∧ win0_1.index t (1 : Fin 4) = 0
    ∧ win0_1.index t (2 : Fin 4) = 0 ∧ win0_1.index t (3 : Fin 4) = win0_6.index t (3 : Fin 4)
    ∧ win0_2.index t (0 : Fin 2) = win0_6.index t (0 : Fin 4) ∧ win0_2.index t (1 : Fin 2) = 0
    ∧ win0_3.index t (0 : Fin 2) = win0_6.index t (0 : Fin 4) ∧ win0_3.index t (1 : Fin 2) = 0
    ∧ win0_4.index t (0 : Fin 2) = win0_6.index t (0 : Fin 4) ∧ win0_4.index t (1 : Fin 2) = 0
    ∧ win0_5.index t (0 : Fin 2) = win0_6.index t (0 : Fin 4) ∧ win0_5.index t (1 : Fin 2) = 0
    ∧ win0_6.index t (0 : Fin 4) ≤ 15 ∧ win0_6.index t (3 : Fin 4) ≤ 3 :=
  (by decide +kernel : ∀ t : Fin grid0.N, _)

/-- Every block position `(q₀, 0, 0, q₃)` is some point's. -/
theorem block_onto : ∀ (q0 : Fin 16) (q3 : Fin 4), ∃ t : Fin cfg0.N, win0_6.index t = ![q0.val, 0, 0, q3.val] :=
  (by decide +kernel : ∀ (q0 : Fin 16) (q3 : Fin 4), ∃ t : Fin grid0.N, win0_6.index t = ![q0.val, 0, 0, q3.val])

/-- WHAT POINT `t` WRITES BACK is block `t` of `padded_result` of the arrays as the kernel finds them. -/
theorem flushed_eq (c : Dev nD) (t : Fin cfg0.N) :
    (dats m 0 c).flushed 6 t = ((cfg0.win 6).blk t).view.read (Elt Ideal)
      (padded_result (V m c main_v0) (V m c main_v1) (V m c main_arg2) (V m c main_arg3) (V m c main_arg4) (V m c main_arg5)) := by
  show (cfg0.win 6).cut (grid0.coords t) ((dats m 0 c).after 6 t) = _
  rw [after0_6]
  unfold out0_6
  rw [View.canon_unit_zero zeros4]
  simp only [View.ld_unit_zero (S := S8x3x128x256) zeros4, View.ld_unit_zero (S := S8x2) zeros2]
  obtain ⟨e60, e61, e62, e63, e00, e01, e02, e03, e10, e11, e12, e13, e20, e21, e30, e31, e40, e41, e50, e51, -, -⟩ := block_positions t
  funext j
  show k0_pay1 (F := Ideal) (k0_pay2 (iblk m c 0 t) (iblk m c 1 t)) (iblk m c 4 t) (iblk m c 5 t) (k0_pay3 (iblk m c 2 t) (iblk m c 3 t))
        (k0_pay4 (grid0.coords t)) j
      = padded_result (V m c main_v0) (V m c main_v1) (V m c main_arg2) (V m c main_arg3) (V m c main_arg4) (V m c main_arg5)
          (((cfg0.win 6).blk t).view.emb j)
  obtain ⟨p, ch, f, q, rfl⟩ : ∃ (p : Fin 8) (ch : Fin 3) (f : Fin 128) (q : Fin 256), j = ix4 p ch f q :=
    ⟨j 0, j 1, j 2, j 3, eq_ix4 j⟩
  refine (point_value (grid0.coords t) (iblk m c 0 t) (iblk m c 1 t) (iblk m c 2 t) (iblk m c 3 t) (iblk m c 4 t) (iblk m c 5 t)
    p ch f q).trans ?_
  -- the two big input blocks are read where the output block is
  have h0 : iblk m c 0 t (ix4 p ch f q) = V m c main_v0 (((cfg0.win 6).blk t).view.emb (ix4 p ch f q)) := by
    show V m c main_v0 (((cfg0.win 0).blk t).view.emb (ix4 p ch f q)) = V m c main_v0 (((cfg0.win 6).blk t).view.emb (ix4 p ch f q))
    refine congrArg _ (funext fun a => Fin.ext ?_)
    match a with
    | ⟨0, _⟩ => show win0_0.index t (0 : Fin 4) * 8 + 1 * p.val = win0_6.index t (0 : Fin 4) * 8 + 1 * p.val; omega
    | ⟨1, _⟩ => show win0_0.index t (1 : Fin 4) * 3 + 1 * ch.val = win0_6.index t (1 : Fin 4) * 3 + 1 * ch.val; omega
    | ⟨2, _⟩ => show win0_0.index t (2 : Fin 4) * 128 + 1 * f.val = win0_6.index t (2 : Fin 4) * 128 + 1 * f.val; omega
    | ⟨3, _⟩ => show win0_0.index t (3 : Fin 4) * 256 + 1 * q.val = win0_6.index t (3 : Fin 4) * 256 + 1 * q.val; omega
  have h1 : iblk m c 1 t (ix4 p ch f q) = V m c main_v1 (((cfg0.win 6).blk t).view.emb (ix4 p ch f q)) := by
    show V m c main_v1 (((cfg0.win 1).blk t).view.emb (ix4 p ch f q)) = V m c main_v1 (((cfg0.win 6).blk t).view.emb (ix4 p ch f q))
    refine congrArg _ (funext fun a => Fin.ext ?_)
    match a with
    | ⟨0, _⟩ => show win0_1.index t (0 : Fin 4) * 8 + 1 * p.val = win0_6.index t (0 : Fin 4) * 8 + 1 * p.val; omega
    | ⟨1, _⟩ => show win0_1.index t (1 : Fin 4) * 3 + 1 * ch.val = win0_6.index t (1 : Fin 4) * 3 + 1 * ch.val; omega
    | ⟨2, _⟩ => show win0_1.index t (2 : Fin 4) * 128 + 1 * f.val = win0_6.index t (2 : Fin 4) * 128 + 1 * f.val; omega
    | ⟨3, _⟩ => show win0_1.index t (3 : Fin 4) * 256 + 1 * q.val = win0_6.index t (3 : Fin 4) * 256 + 1 * q.val; omega
  -- each table block's row `p` is the table's row of the output entry
  have h2 : ∀ n : Fin 2, iblk m c 2 t (ix2 p n) = V m c main_arg2 (ix2 ((((cfg0.win 6).blk t).view.emb (ix4 p ch f q)) 0) n) := fun n => by
    show V m c main_arg2 (((cfg0.win 2).blk t).view.emb (ix2 p n)) = _
    refine congrArg _ (funext fun a => Fin.ext ?_)
    match a with
    | ⟨0, _⟩ => show win0_2.index t (0 : Fin 2) * 8 + 1 * p.val = win0_6.index t (0 : Fin 4) * 8 + 1 * p.val; omega
    | ⟨1, _⟩ => show win0_2.index t (1 : Fin 2) * 2 + 1 * n.val = n.val; omega
  have h3 : ∀ n : Fin 2, iblk m c 3 t (ix2 p n) = V m c main_arg3 (ix2 ((((cfg0.win 6).blk t).view.emb (ix4 p ch f q)) 0) n) := fun n => by
    show V m c main_arg3 (((cfg0.win 3).blk t).view.emb (ix2 p n)) = _
    refine congrArg _ (funext fun a => Fin.ext ?_)
    match a with
    | ⟨0, _⟩ => show win0_3.index t (0 : Fin 2) * 8 + 1 * p.val = win0_6.index t (0 : Fin 4) * 8 + 1 * p.val; omega
    | ⟨1, _⟩ => show win0_3.index t (1 : Fin 2) * 2 + 1 * n.val = n.val; omega
  have h4 : ∀ n : Fin 2, iblk m c 4 t (ix2 p n) = V m c main_arg4 (ix2 ((((cfg0.win 6).blk t).view.emb (ix4 p ch f q)) 0) n) := fun n => by
    show V m c main_arg4 (((cfg0.win 4).blk t).view.emb (ix2 p n)) = _
    refine congrArg _ (funext fun a => Fin.ext ?_)
    match a with
    | ⟨0, _⟩ => show win0_4.index t (0 : Fin 2) * 8 + 1 * p.val = win0_6.index t (0 : Fin 4) * 8 + 1 * p.val; omega
    | ⟨1, _⟩ => show win0_4.index t (1 : Fin 2) * 2 + 1 * n.val = n.val; omega
  have h5 : ∀ n : Fin 2, iblk m c 5 t (ix2 p n) = V m c main_arg5 (ix2 ((((cfg0.win 6).blk t).view.emb (ix4 p ch f q)) 0) n) := fun n => by
    show V m c main_arg5 (((cfg0.win 5).blk t).view.emb (ix2 p n)) = _
    refine congrArg _ (funext fun a => Fin.ext ?_)
    match a with
    | ⟨0, _⟩ => show win0_5.index t (0 : Fin 2) * 8 + 1 * p.val = win0_6.index t (0 : Fin 4) * 8 + 1 * p.val; omega
    | ⟨1, _⟩ => show win0_5.index t (1 : Fin 2) * 2 + 1 * n.val = n.val; omega
  -- the entry's frequency is `f` and its time `256·i₁ + q`
  have hf : ((((cfg0.win 6).blk t).view.emb (ix4 p ch f q)) 2).val = f.val := by
    show win0_6.index t (2 : Fin 4) * 128 + 1 * f.val = f.val; omega
  have ht : ((((cfg0.win 6).blk t).view.emb (ix4 p ch f q)) 3).val = (grid0.coords t 1).val * 256 + q.val := by
    show win0_6.index t (3 : Fin 4) * 256 + 1 * q.val = (grid0.coords t 1).val * 256 + q.val; omega
  rw [h0, h1, h2 0, h2 1, h3 0, h3 1, h4 0, h4 1, h5 0, h5 1]
  unfold padded_result hitRow
  rw [hf, ht]

/-- An index of the padded array is in point `t`'s block iff each coordinate is in the block's range on its axis. -/
theorem mem_blk (t : Fin cfg0.N) (i : S128x3x128x1024.Idx) :
    i ∈ ((cfg0.win 6).blk t).view.set ↔ ∀ a : Fin 4, win0_6.index t a * S8x3x128x256.size a ≤ (i a).val
      ∧ (i a).val < win0_6.index t a * S8x3x128x256.size a + S8x3x128x256.size a := by
  show i ∈ ((View.whole main_v2).slice (win0_6.rect t)).set ↔ _
  rw [View.set_slice_whole, Rect.mem_set_unit]
  exact Iff.rfl

/-- The blocks tile the padded array: entry `(b, ch, f, t)` is in the block at position `(b / 8, 0, 0, t / 256)`. -/
theorem cover (i : S128x3x128x1024.Idx) : ∃ t : Fin cfg0.N, (cfg0.win 6).flush t = true ∧ i ∈ ((cfg0.win 6).blk t).view.set := by
  have hi0 : (i 0).val < 128 := (i 0).isLt
  have hi1 : (i 1).val < 3 := (i 1).isLt
  have hi2 : (i 2).val < 128 := (i 2).isLt
  have hi3 : (i 3).val < 1024 := (i 3).isLt
  obtain ⟨t, ht⟩ := block_onto ⟨(i 0).val / 8, by omega⟩ ⟨(i 3).val / 256, by omega⟩
  have q0 : win0_6.index t (0 : Fin 4) = (i 0).val / 8 := congrFun ht 0
  have q1 : win0_6.index t (1 : Fin 4) = 0 := congrFun ht 1
  have q2 : win0_6.index t (2 : Fin 4) = 0 := congrFun ht 2
  have q3 : win0_6.index t (3 : Fin 4) = (i 3).val / 256 := congrFun ht 3
  refine ⟨t, flush0_6 t, ?_⟩
  rw [mem_blk]
  intro a
  match a with
  | ⟨0, _⟩ => show win0_6.index t (0 : Fin 4) * 8 ≤ (i 0).val ∧ (i 0).val < win0_6.index t (0 : Fin 4) * 8 + 8; omega
  | ⟨1, _⟩ => show win0_6.index t (1 : Fin 4) * 3 ≤ (i 1).val ∧ (i 1).val < win0_6.index t (1 : Fin 4) * 3 + 3; omega
  | ⟨2, _⟩ => show win0_6.index t (2 : Fin 4) * 128 ≤ (i 2).val ∧ (i 2).val < win0_6.index t (2 : Fin 4) * 128 + 128; omega
  | ⟨3, _⟩ => show win0_6.index t (3 : Fin 4) * 256 ≤ (i 3).val ∧ (i 3).val < win0_6.index t (3 : Fin 4) * 256 + 256; omega

/-- THE PADDED OUTPUT after the run is `padded_result` of the arrays as the kernel finds them. -/
theorem final (c : Dev nD) : (dats m 0 c).arrAt 6 cfg0.N
    = padded_result (V m c main_v0) (V m c main_v1) (V m c main_arg2) (V m c main_arg3) (V m c main_arg4) (V m c main_arg5) :=
  (dats m 0 c).arrAt_eq_of_cover 6 _ (fun t _ => flushed_eq m c t) cover

end Cert.KernelSide

end
-- ==== Proof.KernelRun.lean ====
/-
  The kernel program's run: its result is the specification function of its six arguments.

  Before the kernel the program pads `x` and `noise` with 24 zero times, to 1024; the kernel leaves `padded_result` of the padded
  arrays and the four tables in a padded output; afterwards the program keeps the first 1000 times. At an entry whose time is
  below 1000 a padded array reads the array it was padded from, so the kept entries are the noisy input times the two single
  factors — which is the joint factor of the specification (`Cert.Spec.keep_split`).
-/
import proofs.«153836_j37735582662926_2_alg».proof.Proof.KernelBlocks
import Idealize.ShloMosaic.Lib.StableHlo.Run

set_option maxRecDepth 16384

noncomputable section

namespace Cert.KernelSide

open Cert.KernelIdeal Cert.KernelIdeal.Gen Cert.KernelIdeal.GenP Idealize.ShloMosaic Idealize.ShloMosaic.TcCoe Idealize.SL.Sem
open Idealize.ShloMosaic.ValueIdx Cert.Spec Idealize.ShloMosaic.StableHlo
open Idealize.ShloMosaic.Pipeline (Dat)

variable (m : (ℓ : Loc nD τ sig) → Buf (Elt Ideal) ℓ) (ρ : Dev nD → PrngReg)

/-! ## Padding and slicing at an index -/

/-- An array padded at the high end of its last axis reads, at an index inside the original extents, the original entry. -/
theorem pad_inside {α : Type} (x : S128x3x128x1000.Idx → α) {u : Shape} (v : u.Idx → α)
    (h : S128x3x128x1000.Pads ![0, 0, 0, 0] ![0, 0, 0, 24] ![0, 0, 0, 0] S128x3x128x1024) (hu : 0 < u.numel)
    (j : S128x3x128x1024.Idx) (k : S128x3x128x1000.Idx) (hk : ∀ a : Fin 4, (k a).val = (j a).val) :
    pad S128x3x128x1024 ![0, 0, 0, 0] ![0, 0, 0, 24] ![0, 0, 0, 0] x v h hu j = x k := by
  have k0 := (k 0).isLt; have k1 := (k 1).isLt; have k2 := (k 2).isLt; have k3 := (k 3).isLt
  have e0 := hk 0; have e1 := hk 1; have e2 := hk 2; have e3 := hk 3
  have hin : ∀ a : Fin S128x3x128x1000.rank, (![0, 0, 0, 0] : Fin 4 → Nat) a ≤ (j (a.cast h.1)).val
      ∧ ((j (a.cast h.1)).val - (![0, 0, 0, 0] : Fin 4 → Nat) a) % ((![0, 0, 0, 0] : Fin 4 → Nat) a + 1) = 0
      ∧ ((j (a.cast h.1)).val - (![0, 0, 0, 0] : Fin 4 → Nat) a) / ((![0, 0, 0, 0] : Fin 4 → Nat) a + 1) < S128x3x128x1000.size a := fun a =>
    match a with
    | ⟨0, _⟩ => by
      show 0 ≤ (j 0).val ∧ ((j 0).val - 0) % (0 + 1) = 0 ∧ ((j 0).val - 0) / (0 + 1) < 128
      have : (k 0).val < 128 := k0
      omega
    | ⟨1, _⟩ => by
      show 0 ≤ (j 1).val ∧ ((j 1).val - 0) % (0 + 1) = 0 ∧ ((j 1).val - 0) / (0 + 1) < 3
      have : (k 1).val < 3 := k1
      omega
    | ⟨2, _⟩ => by
      show 0 ≤ (j 2).val ∧ ((j 2).val - 0) % (0 + 1) = 0 ∧ ((j 2).val - 0) / (0 + 1) < 128
      have : (k 2).val < 128 := k2
      omega
    | ⟨3, _⟩ => by
      show 0 ≤ (j 3).val ∧ ((j 3).val - 0) % (0 + 1) = 0 ∧ ((j 3).val - 0) / (0 + 1) < 1000
      have : (k 3).val < 1000 := k3
      omega
  unfold pad
  rw [dif_pos hin]
  refine congrArg x (funext fun a => Fin.ext ?_)
  match a with
  | ⟨0, _⟩ => show ((j 0).val - 0) / (0 + 1) = (k 0).val; omega
  | ⟨1, _⟩ => show ((j 1).val - 0) / (0 + 1) = (k 1).val; omega
  | ⟨2, _⟩ => show ((j 2).val - 0) / (0 + 1) = (k 2).val; omega
  | ⟨3, _⟩ => show ((j 3).val - 0) / (0 + 1) = (k 3).val; omega

/-! ## The arrays the kernel finds -/

/-- The kernel finds `x` padded with the float of the integer zero. -/
theorem found_x (c : Dev nD) : (V m c main_v0 : S128x3x128x1024.Idx → Ideal .f32)
    = pad S128x3x128x1024 ![0, 0, 0, 0] ![0, 0, 0, 24] ![0, 0, 0, 0] (m ((c : Thread nD τ).loc main_arg0))
        (sitofp (F := Ideal) .f32 (constantI S_ 32 0#32)) pads_S128x3x128x1000_S128x3x128x1024_000_000_000_0240 h_S_ := by
  dsimp only [V, V0]
  simp only [hostOps0, hostOps0_1, hostOps0_2, hostOps0_3, List.flatten_cons, List.flatten_nil, List.append_nil, List.cons_append,
    List.nil_append]
  after_results
  rfl

/-- The kernel finds `noise` padded with the float of the integer zero. -/
theorem found_noise (c : Dev nD) : (V m c main_v1 : S128x3x128x1024.Idx → Ideal .f32)
    = pad S128x3x128x1024 ![0, 0, 0, 0] ![0, 0, 0, 24] ![0, 0, 0, 0] (m ((c : Thread nD τ).loc main_arg1))
        (sitofp (F := Ideal) .f32 (constantI S_ 32 0#32)) pads_S128x3x128x1000_S128x3x128x1024_000_000_000_0240 h_S_ := by
  dsimp only [V, V0]
  simp only [hostOps0, hostOps0_1, hostOps0_2, hostOps0_3, List.flatten_cons, List.flatten_nil, List.append_nil, List.cons_append,
    List.nil_append]
  after_results
  rfl

/-! ## The program's result -/

/-- The first 1000 times of `padded_result` of padded arrays are the specification of the arrays they were padded from. -/
theorem kept_times (x n : FVec Ideal S128x3x128x1000 .f32) (f0 fl t0 tl : Tab) {u : Shape} (v v' : u.Idx → Ideal .f32)
    (hp : S128x3x128x1000.Pads ![0, 0, 0, 0] ![0, 0, 0, 24] ![0, 0, 0, 0] S128x3x128x1024) (hu : 0 < u.numel)
    (hs : S128x3x128x1024.Slices ![0, 0, 0, 0] S128x3x128x1000) :
    extractStridedSlice S128x3x128x1000 ![0, 0, 0, 0]
        (padded_result (pad S128x3x128x1024 ![0, 0, 0, 0] ![0, 0, 0, 24] ![0, 0, 0, 0] x v hp hu)
          (pad S128x3x128x1024 ![0, 0, 0, 0] ![0, 0, 0, 24] ![0, 0, 0, 0] n v' hp hu) f0 fl t0 tl) hs
      = G x n f0 fl t0 tl := by
  funext i
  obtain ⟨b, ch, f, t, rfl⟩ : ∃ (b : Fin 128) (ch : Fin 3) (f : Fin 128) (t : Fin 1000), i = ix4 b ch f t :=
    ⟨i 0, i 1, i 2, i 3, eq_ix4 i⟩
  have ht : t.val < 1024 := by have := t.isLt; omega
  refine (extractStridedSlice_apply ![0, 0, 0, 0] _ hs (ix4 b ch f t) (ix4 b ch f ⟨t.val, ht⟩) (fun a => match a with
    | ⟨0, _⟩ => by show b.val = 0 + b.val; omega
    | ⟨1, _⟩ => by show ch.val = 0 + ch.val; omega
    | ⟨2, _⟩ => by show f.val = 0 + f.val; omega
    | ⟨3, _⟩ => by show t.val = 0 + t.val; omega)).trans ?_
  unfold padded_result G
  rw [pad_inside x v hp hu (ix4 b ch f ⟨t.val, ht⟩) (ix4 b ch f t) (fun a => match a with
      | ⟨0, _⟩ => rfl | ⟨1, _⟩ => rfl | ⟨2, _⟩ => rfl | ⟨3, _⟩ => rfl),
    pad_inside n v' hp hu (ix4 b ch f ⟨t.val, ht⟩) (ix4 b ch f t) (fun a => match a with
      | ⟨0, _⟩ => rfl | ⟨1, _⟩ => rfl | ⟨2, _⟩ => rfl | ⟨3, _⟩ => rfl)]
  exact keep_split _ _ _

/-- What the program's last line leaves in its result: the specification of the six arguments. -/
theorem result_eq (c : Dev nD) :
    Pipeline.afterTail₀ cfgs (dats m) 0 (V0 m) [hostOps1] c main_v3
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v2)
      = padded_result (V m c main_v0) (V m c main_v1) (V m c main_arg2) (V m c main_arg3) (V m c main_arg4) (V m c main_arg5) from
    (Pipeline.withArrays_arr spec0 launch0.win.arr_inj c _ _ 6).trans (final m c)]
  rw [found_x, found_noise, V_main_arg2, V_main_arg3, V_main_arg4, V_main_arg5]
  exact kept_times _ _ _ _ _ _ _ _ _ _ _

/-- THE KERNEL PROGRAM'S RUN: every weakly fair execution terminates with the result at the specification of the arguments, the
    arguments unchanged. -/
theorem run : θ_run defs (onTc (τ := τ) (main (F := Ideal))) ⟨m, fun _ => 0, ρ⟩ fun r => ∀ c : Dev nD,
      r.2.mem ((c.tc : Thread nD τ).loc main_v3)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v3 (Pipeline.mem_restRefs_of main_v3 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelSide

end
-- ==== Proof.RefValue.lean ====
/-
  The reference program's result is the specification function `Cert.Spec.G`.

  The program builds, for every batch row `b`, a one-bit table over the frequency positions and one over the time positions:
  the entry at position `p` is the disjunction, over the two bands of the row, of "`p` is at or after the band's start and
  before its start plus its length" (signed 32-bit comparisons, the sum wrapping). The disjunction is a fold of bitwise "or"
  over the band axis, whose extent is two, from the initial word zero; a fold of a commutative and associative operation over
  a two-element type is the operation applied to the two values and then to the initial value, and "or" with zero changes
  nothing, so the entry is `Cert.Spec.hitRow` of the row at that position. The complements of the two tables are spread over
  the four-dimensional index, combined by "and", turned into `0` or `1` and multiplied into the noisy input: entry by entry
  this is the product `Cert.Spec.G` states. Everything else in the program copies an element from one index to another; each
  such copy is read by its generated lemma, and the composed index maps are identified with the plain coordinates.
-/
import proofs.«153836_j37735582662926_2_alg».proof.Defs
import proofs.«153836_j37735582662926_2_alg».proof.Proof.Gen.ReferenceIdeal.Run
import proofs.«153836_j37735582662926_2_alg».proof.Proof.Gen.ReferenceIdeal.Read
import proofs.«153836_j37735582662926_2_alg».proof.Proof.Spec
import Idealize.ShloMosaic.PureOps.Reduce
import Idealize.ShloMosaic.Lib.ValueIdx

noncomputable section

namespace Cert.RefSide

open Cert.ReferenceIdeal Cert.ReferenceIdeal.Gen Cert.ReferenceIdeal.Read Idealize.ShloMosaic Idealize.ShloMosaic.ValueIdx

/-! ## A fold over two values -/

/-- A fold of a commutative, associative operation over the two-element index type is the operation applied to the two
    values and then to the initial value. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- "Or" with the zero word on the right changes nothing. -/
theorem ori_zero (a : BitVec 1) : IntOp.ori a 0#1 = a := BitVec.or_zero

/-! ## The frequency table -/

/-- Dropping the band axis of the shape `128 × 2 × 128` leaves `128 × 128`. -/
theorem red_f : S128x2x128.Reduces [1] S128x128 := by decide

/-- The index over `(b, f)` whose band coordinate is `k` is `(b, k, f)`. -/
theorem lift_f (b : Fin 128) (f : Fin 128) (k : Fin 2) : red_f.lift (ix2 b f) k = ix3 b k f := by
  funext c
  match c with
  | ⟨0, _⟩ => rfl
  | ⟨1, _⟩ => rfl
  | ⟨2, _⟩ => rfl

/-- The band starts are read at `(b, k)`. -/
theorem row_f5 (b : Fin 128) (k : Fin 2) (f : Fin 128) : idx_main_v5 (idx_main_v7 (ix3 b k f)) = ix2 b k :=
  funext fun a => Fin.ext (by match a with | ⟨0, _⟩ => rfl | ⟨1, _⟩ => rfl)

/-- The band ends are read at `(b, k)`. -/
theorem row_f10 (b : Fin 128) (k : Fin 2) (f : Fin 128) : idx_main_v10 (idx_main_v12 (ix3 b k f)) = ix2 b k :=
  funext fun a => Fin.ext (by match a with | ⟨0, _⟩ => rfl | ⟨1, _⟩ => rfl)

/-- Before the fold: at `(b, k, f)` the bit says whether frequency `f` lies in band `k` of row `b`. -/
theorem band_f (x2 x3 : (⟨S128x2, .i32⟩ : BufTy).Contents (Elt Ideal)) (b : Fin 128) (k : Fin 2) (f : Fin 128) :
    val_main_v14 (F := Ideal) x2 x3 (ix3 b k f)
      = Cert.Spec.inside (x2 (ix2 b k)) (x3 (ix2 b k)) (BitVec.ofNat 32 f.val) := by
  rw [val_main_v14_apply, val_main_v8_apply, val_main_v13_apply, val_main_v6_apply, val_main_v4_apply, val_main_v3_apply,
    val_main_v7_apply, val_main_v5_apply, val_main_v11_apply, val_main_v4_apply, val_main_v3_apply, val_main_v12_apply,
    val_main_v10_apply, val_main_v9_apply, row_f5, row_f10]
  rfl

/-- After the fold: at `(b, f)` the bit says whether frequency `f` lies in one of the two bands of row `b`. -/
theorem freq_hit (x2 x3 : (⟨S128x2, .i32⟩ : BufTy).Contents (Elt Ideal)) (b : Fin 128) (f : Fin 128) :
    val_main_v15 (F := Ideal) x2 x3 (ix2 b f) = Cert.Spec.hitRow x2 x3 b (BitVec.ofNat 32 f.val) := by
  unfold val_main_v15
  rw [Host.reduce_eq_fold_single IntOp.ori _ _ reducesTo_S128x2x128_S128x128_d1 red_f h_S_]
  refine (fold_univ_fin2 (α := BitVec 1) IntOp.ori _ _).trans ?_
  show IntOp.ori (val_main_v14 (F := Ideal) x2 x3 (red_f.lift (ix2 b f) (0 : Fin 2)))
      (IntOp.ori (val_main_v14 (F := Ideal) x2 x3 (red_f.lift (ix2 b f) (1 : Fin 2))) 0#1) = _
  rw [lift_f, lift_f, band_f, band_f, ori_zero]
  rfl

/-! ## The time table -/

/-- Dropping the band axis of the shape `128 × 2 × 1000` leaves `128 × 1000`. -/
theorem red_t : S128x2x1000.Reduces [1] S128x1000 := by decide

/-- The index over `(b, t)` whose band coordinate is `k` is `(b, k, t)`. -/
theorem lift_t (b : Fin 128) (t : Fin 1000) (k : Fin 2) : red_t.lift (ix2 b t) k = ix3 b k t := by
  funext c
  match c with
  | ⟨0, _⟩ => rfl
  | ⟨1, _⟩ => rfl
  | ⟨2, _⟩ => rfl

/-- The band starts are read at `(b, k)`. -/
theorem row_t18 (b : Fin 128) (k : Fin 2) (t : Fin 1000) : idx_main_v18 (idx_main_v20 (ix3 b k t)) = ix2 b k :=
  funext fun a => Fin.ext (by match a with | ⟨0, _⟩ => rfl | ⟨1, _⟩ => rfl)

/-- The band ends are read at `(b, k)`. -/
theorem row_t23 (b : Fin 128) (k : Fin 2) (t : Fin 1000) : idx_main_v23 (idx_main_v25 (ix3 b k t)) = ix2 b k :=
  funext fun a => Fin.ext (by match a with | ⟨0, _⟩ => rfl | ⟨1, _⟩ => rfl)

/-- Before the fold: at `(b, k, t)` the bit says whether time `t` lies in band `k` of row `b`. -/
theorem band_t (x4 x5 : (⟨S128x2, .i32⟩ : BufTy).Contents (Elt Ideal)) (b : Fin 128) (k : Fin 2) (t : Fin 1000) :
    val_main_v27 (F := Ideal) x4 x5 (ix3 b k t)
      = Cert.Spec.inside (x4 (ix2 b k)) (x5 (ix2 b k)) (BitVec.ofNat 32 t.val) := by
  rw [val_main_v27_apply, val_main_v21_apply, val_main_v26_apply, val_main_v19_apply, val_main_v17_apply, val_main_v16_apply,
    val_main_v20_apply, val_main_v18_apply, val_main_v24_apply, val_main_v17_apply, val_main_v16_apply, val_main_v25_apply,
    val_main_v23_apply, val_main_v22_apply, row_t18, row_t23]
  rfl

/-- After the fold: at `(b, t)` the bit says whether time `t` lies in one of the two bands of row `b`. -/
theorem time_hit (x4 x5 : (⟨S128x2, .i32⟩ : BufTy).Contents (Elt Ideal)) (b : Fin 128) (t : Fin 1000) :
    val_main_v28 (F := Ideal) x4 x5 (ix2 b t) = Cert.Spec.hitRow x4 x5 b (BitVec.ofNat 32 t.val) := by
  unfold val_main_v28
  rw [Host.reduce_eq_fold_single IntOp.ori _ _ reducesTo_S128x2x1000_S128x1000_d1 red_t h_S_]
  refine (fold_univ_fin2 (α := BitVec 1) IntOp.ori _ _).trans ?_
  show IntOp.ori (val_main_v27 (F := Ideal) x4 x5 (red_t.lift (ix2 b t) (0 : Fin 2)))
      (IntOp.ori (val_main_v27 (F := Ideal) x4 x5 (red_t.lift (ix2 b t) (1 : Fin 2))) 0#1) = _
  rw [lift_t, lift_t, band_t, band_t, ori_zero]
  rfl

/-! ## The whole program -/

/-- The frequency table is read at `(b, f)`. -/
theorem cell_f (b : Fin 128) (ch : Fin 3) (f : Fin 128) (t : Fin 1000) :
    idx_main_v30 (idx_main_v33 (idx_main_v37 (ix4 b ch f t))) = ix2 b f :=
  funext fun a => Fin.ext (by match a with | ⟨0, _⟩ => rfl | ⟨1, _⟩ => rfl)

/-- The time table is read at `(b, t)`. -/
theorem cell_t (b : Fin 128) (ch : Fin 3) (f : Fin 128) (t : Fin 1000) :
    idx_main_v32 (idx_main_v34 (idx_main_v37 (ix4 b ch f t))) = ix2 b t :=
  funext fun a => Fin.ext (by match a with | ⟨0, _⟩ => rfl | ⟨1, _⟩ => rfl)

/-- The reference program's result, as a function of its six arguments, is `Cert.Spec.G`. -/
theorem reference_is_G (x0 x1 : (⟨Cert.ReferenceIdeal.S128x3x128x1000, .f32⟩ : BufTy).Contents (Elt Ideal))
    (x2 x3 x4 x5 : (⟨Cert.ReferenceIdeal.S128x2, .i32⟩ : BufTy).Contents (Elt Ideal)) :
    Cert.ReferenceIdeal.Read.val_main_v38 (F := Ideal) x0 x1 x2 x3 x4 x5 = Cert.Spec.G x0 x1 x2 x3 x4 x5 := by
  funext i
  obtain ⟨b, ch, f, t, rfl⟩ : ∃ (b : Fin 128) (ch : Fin 3) (f : Fin 128) (t : Fin 1000), i = ix4 b ch f t :=
    ⟨i 0, i 1, i 2, i 3, eq_ix4 i⟩
  unfold Cert.Spec.G
  rw [val_main_v38_apply, val_main_v2_apply, val_main_v1_apply, val_main_v0_apply, val_main_cst_apply, val_main_v37_apply,
    val_main_v36_apply, val_main_v35_apply, val_main_v33_apply, val_main_v30_apply, val_main_v29_apply, val_main_v34_apply,
    val_main_v32_apply, val_main_v31_apply, cell_f, cell_t, freq_hit, time_hit]
  rfl

end Cert.RefSide

end
-- ==== Proof.lean ====
/-
  The proof of `Cert.Claim`: a masked-noise kernel against its array-level reference, on the extended reals.

  Both programs add `0.04 · noise` to `x` and zero the result on two frequency bands and two time bands per batch row; the
  bands are given by integer tables of starts and lengths and decided by signed 32-bit comparisons (Proof/Spec.lean states the
  result as one function `Cert.Spec.G` of the six arguments).

  * The reference computes the two band tables by a two-term "or" along the band axis, takes the conjunction of their
    complements, and multiplies by its `0/1` value (Proof/RefValue.lean: its result is `G`).
  * The kernel pads the time axis from 1000 to 1024, works block by block — 8 batch rows and 256 times per block, the time
    index of a block offset by 256 times its position —, multiplies by the `0/1` value of "no frequency band" and then by
    that of "no time band", and the program keeps the first 1000 times (Proof/KernelPayload.lean: the body at an entry;
    Proof/KernelBlocks.lean: the blocks tile the padded output; Proof/KernelRun.lean: the pads, the slice and the run).
  * The two products agree for every extended real, since a factor is `0` or `1` (`Cert.Spec.keep_split`); the precondition
    that the float inputs are finite is not used.

  The three frames: the kernel programs' from their frame modules (Proof/FrameKernel.lean, Proof/FrameKernelIdeal.lean), the
  reference's from its run with the result dropped. Nothing was rewritten by the idealization, so `preserves` asks nothing.
-/
import proofs.«153836_j37735582662926_2_alg».proof.Defs
import proofs.«153836_j37735582662926_2_alg».proof.Proof.Gen.Kernel
import proofs.«153836_j37735582662926_2_alg».proof.Proof.Gen.KernelIdeal
import proofs.«153836_j37735582662926_2_alg».proof.Proof.Gen.ReferenceIdeal
import proofs.«153836_j37735582662926_2_alg».proof.Proof.Gen.Pre_finite_inputs
import proofs.«153836_j37735582662926_2_alg».proof.Proof.Gen.ReferenceIdeal.Run
import proofs.«153836_j37735582662926_2_alg».proof.Proof.Gen.ReferenceIdeal.Read
import proofs.«153836_j37735582662926_2_alg».proof.Proof.FrameKernel
import proofs.«153836_j37735582662926_2_alg».proof.Proof.FrameKernelIdeal
import proofs.«153836_j37735582662926_2_alg».proof.Proof.KernelRun
import proofs.«153836_j37735582662926_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernel_ideal : Cert.frame_KernelIdeal := fun m ρ _ => Cert.KernelIdeal.GenP.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with their result at `Cert.Spec.G` of their arguments, and the arguments agree. -/
theorem algebraic : Cert.algebraic_KernelIdeal_ReferenceIdeal := by
  intro m ρ m' ρ' _ hagree
  refine ⟨_, Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.RefSide.reference_is_G, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
